-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S100000x64 .f32) (main_arg2 : FVec F S1600000 .f32) (main_arg3 : FVec F S64x64 .f32) (main_arg4 : FVec F S64 .f32) (main_arg5 : IVec S1600000 32) (main_arg6 : IVec S1600000 32) (main_arg7 : IVec S100000 32) (main_arg8 : IVec S100000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 47
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x1, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000, .i32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000, .i32⟩
  | .hbm, ⟨44, _⟩ => ⟨S64x64, .bf16⟩
  | .hbm, ⟨45, _⟩ => ⟨S1x64, .f32⟩
  | .hbm, ⟨46, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .bf16⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000_S100000x1_S100000_n_0_n_n_0_1_1_wf : GatherDims.WF S100000 S100000x1 S100000 [] [0] [] [0] [] 1 ![1]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x1, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000, .i32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S100000, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000_S100000x1_S100000_n_0_n_n_0_1_1_wf : GatherDims.WF S100000 S100000x1 S100000 [] [0] [] [0] [] 1 ![1]
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.PointPayload.lean ====
/-
  What one grid point writes back, as the body's arithmetic.  The body loads its four staged blocks whole, computes one
  5000 x 64 tile and stores it whole, so the block written back at point t is that tile of the four input blocks at t.
-/
import proofs.«133965_j4629974745848_1_alg».proof.Proof.Gen.KernelIdeal.Value
import Idealize.ShloMosaic.Lib.ValueIdx
import Idealize.ShloMosaic.PureOps.Ideal

noncomputable section

namespace Cert.PointPayload

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The block point t writes back is the body's tile of the four input blocks at t. -/
theorem flushed_pay (c : Dev nD) (t : Fin cfg0.N) :
    (dats m 0 c).flushed 4 t
      = (cfg0.win 4).cut (grid0.coords t)
          (k0_pay1 (F := Ideal) (iblk m c 0 t) (iblk m c 1 t) (iblk m c 2 t) (iblk m c 3 t)) := by
  rw [Cert.KernelIdeal.Value.flushed4]
  unfold out0_4
  rw [View.canon_unit_zero origin]
  rw [View.ld_unit_zero (S := S5000x64) origin, View.ld_unit_zero (S := S5000x64) origin,
    View.ld_unit_zero (S := S64x64) origin, View.ld_unit_zero (S := S1x64) origin]

end Cert.PointPayload

end
-- ==== Proof.BlockFacts.lean ====
/-
  The launch's blocks.  Of the 20 grid points, point t stages block row t of the two row-blocked inputs and of the
  output, and block (0, 0) of the weights and of the bias row.  The output's 20 blocks of 5000 rows tile its 100000 rows:
  row n lies in the block of point n / 5000.
-/
import proofs.«133965_j4629974745848_1_alg».proof.Proof.Gen.KernelIdeal.Value

noncomputable section

namespace Cert.BlockFacts

open Cert.KernelIdeal Cert.KernelIdeal.Gen Idealize.ShloMosaic Idealize.ShloMosaic.TcCoe Idealize.SL.Sem
open Idealize.ShloMosaic.Pipeline (Dat)

/-- The printed index maps, decided over the 20 grid points: the two row-blocked inputs and the output are at block
    row t, block column 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- An index of the result array is in point t's block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v29).slice (win0_4.rect t)).set ↔ _
  rw [View.set_slice_whole, Rect.mem_set_unit]
  exact Iff.rfl

/-- Every index of the result array is in some point's block: row n is in the block of point n / 5000. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

end Cert.BlockFacts

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.HostSide.lean ====
/-
  What the kernel's launch finds in the arrays the surrounding program computed before it.  Four of the launch's arrays
  are not arguments but results of host operations:
    * the aggregated neighbourhood f: every edge e contributes row src[e] of the source embeddings, scaled by the edge's
      weight, to row dst[e] (a gather, a row-wise scaling and a scatter-add into zeros; a negative index counts from the
      end);
    * the weight matrix narrowed to the matrix unit's input format (on the extended reals: unchanged);
    * the bias vector re-laid as a 1 x 64 row;
  and two of the program's results never pass through the launch at all: the two integer arrays picked at `perm`.
  Each is read here as a term of the program's arguments.
-/
import proofs.«133965_j4629974745848_1_alg».proof.Proof.Gen.KernelIdeal.Frame
import proofs.«133965_j4629974745848_1_alg».proof.Proof.LibHostIdx
import Idealize.ShloMosaic.Lib.StableHlo.Run
import Idealize.ShloMosaic.Lib.ValueIdx

noncomputable section

namespace Cert.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated neighbourhood: the scatter-add, into zeros at the rows `x6` names, of the rows of `x0` that `x5`
    names, each scaled by its edge's weight `x2`. -/
def agg (x0 : (⟨S100000x64, .f32⟩ : BufTy).Contents (Elt Ideal)) (x2 : (⟨S1600000, .f32⟩ : BufTy).Contents (Elt Ideal))
    (x5 x6 : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x6)
    (mulf (F := Ideal)
      (Host.gather gather_S100000x64_S1600000x1_S1600000x64_1_0_n_n_0_1_164 x0
        (broadcastInDim S1600000x1 ![0] bcast_S1600000_S1600000x1_0
          (select (cmpi .slt x5 (broadcastInDim S1600000 ![] bcast_S_S1600000 (constantI S_ 32 0#32)))
            (addi x5 (broadcastInDim S1600000 ![] bcast_S_S1600000 (constantI S_ 32 100000#32))) x5)))
      (broadcastInDim S1600000x64 ![0, 1] bcast_S1600000x1_S1600000x64_0_1
        (broadcastInDim S1600000x1 ![0] bcast_S1600000_S1600000x1_0 x2)))

/-- An integer array picked at the positions `x9` names (a negative position counts from the end). -/
def pick (x x9 : (⟨S100000, .i32⟩ : BufTy).Contents (Elt Ideal)) : (⟨S100000, .i32⟩ : BufTy).Contents (Elt Ideal) :=
  Host.gather gather_S100000_S100000x1_S100000_n_0_n_n_0_1_1 x
    (broadcastInDim S100000x1 ![0] bcast_S100000_S100000x1_0
      (select (cmpi .slt x9 (broadcastInDim S100000 ![] bcast_S_S100000 (constantI S_ 32 0#32)))
        (addi x9 (broadcastInDim S100000 ![] bcast_S_S100000 (constantI S_ 32 100000#32))) x9))

set_option maxRecDepth 8192 in
set_option maxHeartbeats 2000000 in
/-- The launch's second array is the aggregated neighbourhood of the arguments. -/
theorem V_agg (c : Dev nD) :
    (V m c main_v12 : (⟨S100000x64, .f32⟩ : BufTy).Contents (Elt Ideal))
      = agg (m ((c : Thread nD τ).loc main_arg0)) (m ((c : Thread nD τ).loc main_arg2))
          (m ((c : Thread nD τ).loc main_arg5)) (m ((c : Thread nD τ).loc main_arg6)) := by
  dsimp only [Gen.V, Gen.hostOps0]
  after_results_simp <;> rfl

set_option maxRecDepth 8192 in
set_option maxHeartbeats 2000000 in
/-- The launch's third array is the weight matrix, its format narrowed. -/
theorem V_weights (c : Dev nD) :
    (V m c main_v27 : (⟨S64x64, .bf16⟩ : BufTy).Contents (Elt Ideal))
      = truncf (F := Ideal) .bf16 (m ((c : Thread nD τ).loc main_arg3)) bitsLt_bf16_f32 := by
  dsimp only [Gen.V, Gen.hostOps0]
  after_results_simp <;> rfl

set_option maxRecDepth 8192 in
set_option maxHeartbeats 2000000 in
/-- The launch's fourth array is the bias vector as a one-row matrix. -/
theorem V_bias (c : Dev nD) :
    (V m c main_v28 : (⟨S1x64, .f32⟩ : BufTy).Contents (Elt Ideal))
      = shapeCast S1x64 (m ((c : Thread nD τ).loc main_arg4)) shapeCasts_S64_S1x64 := by
  dsimp only [Gen.V, Gen.hostOps0]
  after_results_simp <;> rfl

set_option maxRecDepth 8192 in
set_option maxHeartbeats 2000000 in
/-- The program's second result: argument 7 picked at argument 9. -/
theorem V_users (c : Dev nD) :
    (V m c main_v19 : (⟨S100000, .i32⟩ : BufTy).Contents (Elt Ideal))
      = pick (m ((c : Thread nD τ).loc main_arg7)) (m ((c : Thread nD τ).loc main_arg9)) := by
  dsimp only [Gen.V, Gen.hostOps0]
  after_results_simp <;> rfl

set_option maxRecDepth 8192 in
set_option maxHeartbeats 2000000 in
/-- The program's third result: argument 8 picked at argument 9. -/
theorem V_labels (c : Dev nD) :
    (V m c main_v26 : (⟨S100000, .i32⟩ : BufTy).Contents (Elt Ideal))
      = pick (m ((c : Thread nD τ).loc main_arg8)) (m ((c : Thread nD τ).loc main_arg9)) := by
  dsimp only [Gen.V, Gen.hostOps0]
  after_results_simp <;> rfl

/-- The narrowed weights, entry by entry, are the weights. -/
theorem weights_at (c : Dev nD) (i : S64x64.Idx) : V m c main_v27 i = m ((c : Thread nD τ).loc main_arg3) i := by
  rw [V_weights]; rfl

/-- The bias row's entry (0, q) is the bias vector's entry q. -/
theorem bias_at (c : Dev nD) (q : Fin 64) :
    V m c main_v28 (ix2 (0 : Fin 1) q) = m ((c : Thread nD τ).loc main_arg4) (ix1 q) := by
  rw [V_bias]
  exact Cert.Lib.HostIdx.castRow_apply shapeCasts_S64_S1x64 _ q

end Cert.HostSide

end
-- ==== Proof.BlockReads.lean ====
/-
  The four input blocks of grid point t, read at the entries one output entry needs.  With i the array index of the
  output block's entry j (row 5000·t + j₀, column j₁):  row j₀ of the block of the node's own embeddings is row i₀ of
  that array, and likewise for the aggregated neighbourhood; column j₁ of the weight block is column i₁ of the weights;
  entry j₁ of the bias row's block is entry i₁ of the bias vector.
-/
import proofs.«133965_j4629974745848_1_alg».proof.Proof.BlockFacts
import proofs.«133965_j4629974745848_1_alg».proof.Proof.HostSide

noncomputable section

namespace Cert.BlockReads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row j₀ of point t's block of the node's own embeddings is the array's row 5000·t + j₀. -/
theorem own_row (c : Dev nD) (t : Fin cfg0.N) (j : S5000x64.Idx) (k : Fin 64) :
    iblk m c 0 t (ix2 (j 0 : Fin 5000) k)
      = m ((c : Thread nD τ).loc main_arg1) (ix2 ((((cfg0.win 4).blk t).view.emb j) 0 : Fin 100000) k) := by
  obtain ⟨e00, e01, e10, e11, e20, e21, e30, e31, e40, e41⟩ := Cert.BlockFacts.idx_facts t
  show V m c main_arg1 (((cfg0.win 0).blk t).view.emb (ix2 (j 0 : Fin 5000) k)) = _
  rw [V_main_arg1]
  refine congrArg (m ((c : Thread nD τ).loc main_arg1)) (funext fun a => Fin.ext ?_)
  match a with
  | ⟨0, _⟩ =>
    show win0_0.index t (0 : Fin 2) * 5000 + 1 * (j 0).val = win0_4.index t (0 : Fin 2) * 5000 + 1 * (j 0).val
    omega
  | ⟨1, _⟩ =>
    show win0_0.index t (1 : Fin 2) * 64 + 1 * k.val = k.val
    omega

/-- A block of the launch's second window read out of ANY array: the entry at a block index is the array's entry at
    the embedded index. -/
theorem read1_at (A : (⟨S100000x64, .f32⟩ : BufTy).Contents (Elt Ideal)) (t : Fin cfg0.N) (y : S5000x64.Idx) :
    ((cfg0.win 1).blk t).view.read (Elt Ideal) A y = A (((cfg0.win 1).blk t).view.emb y) := rfl

/-- The launch's second window stages blocks of the aggregated neighbourhood. -/
theorem iblk1_eq (c : Dev nD) (t : Fin cfg0.N) :
    iblk m c 1 t = ((cfg0.win 1).blk t).view.read (Elt Ideal)
      (Cert.HostSide.agg (m ((c : Thread nD τ).loc main_arg0)) (m ((c : Thread nD τ).loc main_arg2))
        (m ((c : Thread nD τ).loc main_arg5)) (m ((c : Thread nD τ).loc main_arg6))) := by
  have h2 : V m c (Pipeline.arrRef spec0 1) = Cert.HostSide.agg (m ((c : Thread nD τ).loc main_arg0))
      (m ((c : Thread nD τ).loc main_arg2)) (m ((c : Thread nD τ).loc main_arg5)) (m ((c : Thread nD τ).loc main_arg6)) :=
    Cert.HostSide.V_agg m c
  unfold iblk
  exact congrArg (((cfg0.win 1).blk t).view.read (Elt Ideal)) h2

/-- Row j₀ of point t's block of the aggregated neighbourhood is that array's row 5000·t + j₀. -/
theorem agg_row (c : Dev nD) (t : Fin cfg0.N) (j : S5000x64.Idx) (k : Fin 64) :
    iblk m c 1 t (ix2 (j 0 : Fin 5000) k)
      = Cert.HostSide.agg (m ((c : Thread nD τ).loc main_arg0)) (m ((c : Thread nD τ).loc main_arg2))
          (m ((c : Thread nD τ).loc main_arg5)) (m ((c : Thread nD τ).loc main_arg6))
          (ix2 ((((cfg0.win 4).blk t).view.emb j) 0 : Fin 100000) k) := by
  obtain ⟨e00, e01, e10, e11, e20, e21, e30, e31, e40, e41⟩ := Cert.BlockFacts.idx_facts t
  have hidx : ((cfg0.win 1).blk t).view.emb (ix2 (j 0 : Fin 5000) k)
      = ix2 ((((cfg0.win 4).blk t).view.emb j) 0 : Fin 100000) k := by
    refine funext fun a => Fin.ext ?_
    match a with
    | ⟨0, _⟩ =>
      show win0_1.index t (0 : Fin 2) * 5000 + 1 * (j 0).val = win0_4.index t (0 : Fin 2) * 5000 + 1 * (j 0).val
      omega
    | ⟨1, _⟩ =>
      show win0_1.index t (1 : Fin 2) * 64 + 1 * k.val = k.val
      omega
  exact (congrFun (iblk1_eq m c t) (ix2 (j 0 : Fin 5000) k)).trans
    ((read1_at (Cert.HostSide.agg (m ((c : Thread nD τ).loc main_arg0)) (m ((c : Thread nD τ).loc main_arg2))
        (m ((c : Thread nD τ).loc main_arg5)) (m ((c : Thread nD τ).loc main_arg6))) t (ix2 (j 0 : Fin 5000) k)).trans
      (congrArg (Cert.HostSide.agg (m ((c : Thread nD τ).loc main_arg0)) (m ((c : Thread nD τ).loc main_arg2))
        (m ((c : Thread nD τ).loc main_arg5)) (m ((c : Thread nD τ).loc main_arg6))) hidx))

/-- Column j₁ of the weight block is column j₁ of the weights (the block is the whole matrix, its format narrowed). -/
theorem weight_col (c : Dev nD) (t : Fin cfg0.N) (j : S5000x64.Idx) (k : Fin 64) :
    iblk m c 2 t (ix2 k (j 1 : Fin 64))
      = m ((c : Thread nD τ).loc main_arg3) (ix2 k ((((cfg0.win 4).blk t).view.emb j) 1 : Fin 64)) := by
  obtain ⟨e00, e01, e10, e11, e20, e21, e30, e31, e40, e41⟩ := Cert.BlockFacts.idx_facts t
  show V m c main_v27 (((cfg0.win 2).blk t).view.emb (ix2 k (j 1 : Fin 64))) = _
  rw [Cert.HostSide.weights_at]
  refine congrArg (m ((c : Thread nD τ).loc main_arg3)) (funext fun a => Fin.ext ?_)
  match a with
  | ⟨0, _⟩ =>
    show win0_2.index t (0 : Fin 2) * 64 + 1 * k.val = k.val
    omega
  | ⟨1, _⟩ =>
    show win0_2.index t (1 : Fin 2) * 64 + 1 * (j 1).val = win0_4.index t (1 : Fin 2) * 64 + 1 * (j 1).val
    omega

/-- Entry j₁ of the bias row's block is entry j₁ of the bias vector. -/
theorem bias_entry (c : Dev nD) (t : Fin cfg0.N) (j : S5000x64.Idx) :
    iblk m c 3 t (ix2 (0 : Fin 1) (j 1 : Fin 64))
      = m ((c : Thread nD τ).loc main_arg4) (ix1 ((((cfg0.win 4).blk t).view.emb j) 1 : Fin 64)) := by
  obtain ⟨e00, e01, e10, e11, e20, e21, e30, e31, e40, e41⟩ := Cert.BlockFacts.idx_facts t
  have key : ∀ q : Fin 64, V m c main_v28 (((cfg0.win 3).blk t).view.emb (ix2 (0 : Fin 1) q))
      = m ((c : Thread nD τ).loc main_arg4) (ix1 q) := by
    intro q
    have he : ((cfg0.win 3).blk t).view.emb (ix2 (0 : Fin 1) q) = ix2 (0 : Fin 1) q := by
      refine funext fun a => Fin.ext ?_
      match a with
      | ⟨0, _⟩ =>
        show win0_3.index t (0 : Fin 2) * 1 + 1 * 0 = 0
        omega
      | ⟨1, _⟩ =>
        show win0_3.index t (1 : Fin 2) * 64 + 1 * q.val = q.val
        omega
    exact (congrArg (V m c main_v28) he).trans (Cert.HostSide.bias_at m c q)
  refine (key (j 1)).trans (congrArg (m ((c : Thread nD τ).loc main_arg4)) (funext fun a => Fin.ext ?_))
  match a with
  | ⟨0, _⟩ =>
    show (j 1).val = win0_4.index t (1 : Fin 2) * 64 + 1 * (j 1).val
    omega

end Cert.BlockReads

end
-- ==== Proof.LibMatmul.lean ====
/-
  A tile product into the zero accumulator, read at one output index: with the contraction running over one axis of
  extent `K`, the entry is the sum over `k : Fin K` of the left operand at the index the dimension numbers assign
  to `k` times the right operand at its index. The caller names the two operand indices as functions of `k`.
-/
import Idealize.ShloMosaic.Lib.ValueIdx
import Idealize.ShloMosaic.PureOps.Ideal.Laws

noncomputable section

namespace Cert.LibMatmul

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d none lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibMatmul

end
-- ==== Proof.TileEntry.lean ====
/-
  One tile of the kernel.  The body adds the two 5000 x 64 input tiles, multiplies the sum by the 64 x 64 weight tile
  into a zero accumulator, adds the bias row to every row and applies tanh.  Read at row p, column q of the tile this
  is  tanh ( Σ_k (x[p, k] + y[p, k]) · w[k, q]  +  β[0, q] ):  the narrowing of the sum to the matrix unit's input
  format is the identity on the extended reals, and a product into the zero accumulator is the plain sum over the one
  contracted axis.
-/
import proofs.«133965_j4629974745848_1_alg».proof.Proof.Gen.KernelIdeal.Skeleton
import proofs.«133965_j4629974745848_1_alg».proof.Proof.LibMatmul
import Idealize.ShloMosaic.Lib.ValueIdx
import Idealize.ShloMosaic.Lib.Pipeline.Value

noncomputable section

open scoped BigOperators

namespace Cert.TileEntry

open Cert.KernelIdeal Cert.KernelIdeal.Gen Idealize.ShloMosaic Idealize.ShloMosaic.ValueIdx

/-- The tile product's dimension numbers: the left operand is read at the output's row … -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and at the contraction coordinate as its column; -/
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- the right operand at the contraction coordinate as its row … -/
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … and at the output's column. -/
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- So for output index (p, q) and contraction coordinate k the left factor is read at (p, k) … -/
theorem lhs_at (p : Fin 5000) (q : Fin 64) (k : Fin 64) :
    dot_S5000x64_S64x64_S5000x64_1_0_0_1_n_n.lhsIdx (ix2 p q)
        ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  exact funext fun a => Fin.ext (by
    match a with
    | ⟨0, _⟩ => exact lhs_row _ _
    | ⟨1, _⟩ => exact (lhs_col _ _).trans hk)

/-- … and the right factor at (k, q). -/
theorem rhs_at (p : Fin 5000) (q : Fin 64) (k : Fin 64) :
    dot_S5000x64_S64x64_S5000x64_1_0_0_1_n_n.rhsIdx (ix2 p q)
        ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  exact funext fun a => Fin.ext (by
    match a with
    | ⟨0, _⟩ => exact (rhs_row _ _).trans hk
    | ⟨1, _⟩ => exact rhs_col _ _)

/-- The bias row spread over the tile's rows, at (p, q), is the row's entry q. -/
theorem bias_at (β : Vec Ideal S1x64 .f32) (p : Fin 5000) (q : Fin 64) :
    broadcastTo S5000x64 β broadcasts_S1x64_S5000x64 (ix2 p q) = β (ix2 (0 : Fin 1) q) :=
  broadcastTo_apply β broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The tile the body stores, at row p and column q. -/
theorem pay_at (x y : Vec Ideal S5000x64 .f32) (w : Vec Ideal S64x64 .bf16) (β : Vec Ideal S1x64 .f32)
    (p : Fin 5000) (q : Fin 64) :
    k0_pay1 (F := Ideal) x y w β (ix2 p q)
      = Ideal.tanh ((∑ k : Fin 64, (x (ix2 p k) + y (ix2 p k)) * w (ix2 k q)) + β (ix2 (0 : Fin 1) q)) := by
  simp only [k0_pay1, shapeCast_self]
  have hm := Cert.LibMatmul.matmul_zero_at (φ₁ := .bf16) (φ₂ := .bf16) dot_S5000x64_S64x64_S5000x64_1_0_0_1_n_n 64 rfl rfl
    (truncf .bf16 (addf x y) bitsLt_bf16_f32) w (ix2 p q) (fun k => ix2 p k) (fun k => ix2 k q)
    (lhs_at p q) (rhs_at p q)
  exact congrArg Ideal.tanh (congrArg₂ (· + ·) hm (bias_at β p q))

end Cert.TileEntry

end
-- ==== Proof.DenseLayer.lean ====
/-
  The function both programs compute for their first result.  With h = a + f the sum of the node's own embedding
  and its aggregated neighbourhood, entry (n, j) of the result is

      tanh ( Σ_k h[n, k] · W[k, j]  +  b[j] ),

  the hyperbolic tangent of one affine row-times-matrix product.  Everything is read on the extended reals: sums and
  products are the exact ones, and the aggregated array `f` is carried as an array, never opened.
-/
import Idealize.ShloMosaic.Lib.ValueIdx
import Idealize.ShloMosaic.PureOps.Ideal

noncomputable section

open scoped BigOperators

namespace Cert.DenseLayer

open Idealize.ShloMosaic Idealize.ShloMosaic.ValueIdx

/-- Entry (n, j): the tanh of row n of a + f against column j of W, shifted by b[j]. -/
def entry (a f : FVec Ideal ⟨2, ![100000, 64]⟩ .f32) (W : FVec Ideal ⟨2, ![64, 64]⟩ .f32) (b : FVec Ideal ⟨1, ![64]⟩ .f32)
    (n : Fin 100000) (j : Fin 64) : EReal :=
  Ideal.tanh ((∑ k : Fin 64, (a (ix2 n k) + f (ix2 n k)) * W (ix2 k j)) + b (ix1 j))

/-- The whole result array, index by index. -/
def out (a f : FVec Ideal ⟨2, ![100000, 64]⟩ .f32) (W : FVec Ideal ⟨2, ![64, 64]⟩ .f32) (b : FVec Ideal ⟨1, ![64]⟩ .f32) :
    FVec Ideal ⟨2, ![100000, 64]⟩ .f32 :=
  fun i => entry a f W b (i 0) (i 1)

theorem out_ix2 (a f : FVec Ideal ⟨2, ![100000, 64]⟩ .f32) (W : FVec Ideal ⟨2, ![64, 64]⟩ .f32) (b : FVec Ideal ⟨1, ![64]⟩ .f32)
    (n : Fin 100000) (j : Fin 64) : out a f W b (ix2 n j) = entry a f W b n j := rfl

end Cert.DenseLayer

end
-- ==== Proof.TileRows.lean ====
/-
  One entry of a stored tile against one entry of the dense layer.  Entry (p, q) of the tile is
  tanh ( Σ_k (x[p, k] + y[p, k]) · w[k, q] + β[0, q] ); entry (n, j) of the dense layer is the same expression over the
  whole arrays.  So they agree as soon as row p of each row-blocked tile is row n of its array, column q of the weight
  tile is column j of the weights, and the bias row's entry q is the bias vector's entry j.
-/
import proofs.«133965_j4629974745848_1_alg».proof.Proof.TileEntry
import proofs.«133965_j4629974745848_1_alg».proof.Proof.DenseLayer

noncomputable section

open scoped BigOperators

namespace Cert.TileRows

open Cert.KernelIdeal Cert.KernelIdeal.Gen Idealize.ShloMosaic Idealize.ShloMosaic.ValueIdx

/-- One entry of a stored tile is one entry of the dense layer, as soon as the tile's row of each row-blocked input is
    the array's row, the weight tile's column is the weight matrix's, and the bias row's entry is the bias vector's. -/
theorem tile_at (a f : FVec Ideal ⟨2, ![100000, 64]⟩ .f32) (W : FVec Ideal ⟨2, ![64, 64]⟩ .f32) (b : FVec Ideal ⟨1, ![64]⟩ .f32)
    (x y : Vec Ideal S5000x64 .f32) (w : Vec Ideal S64x64 .bf16) (β : Vec Ideal S1x64 .f32)
    (j : S5000x64.Idx) (i : S100000x64.Idx)
    (hx : ∀ k : Fin 64, x (ix2 (j 0 : Fin 5000) k) = a (ix2 (i 0 : Fin 100000) k))
    (hy : ∀ k : Fin 64, y (ix2 (j 0 : Fin 5000) k) = f (ix2 (i 0 : Fin 100000) k))
    (hw : ∀ k : Fin 64, w (ix2 k (j 1 : Fin 64)) = W (ix2 k (i 1 : Fin 64)))
    (hβ : β (ix2 (0 : Fin 1) (j 1 : Fin 64)) = b (ix1 (i 1 : Fin 64))) :
    k0_pay1 (F := Ideal) x y w β j = Cert.DenseLayer.out a f W b i := by
  obtain ⟨p, q, rfl⟩ : ∃ (p : Fin 5000) (q : Fin 64), j = ix2 p q := ⟨j 0, j 1, eq_ix2 j⟩
  obtain ⟨n, r, rfl⟩ : ∃ (n : Fin 100000) (r : Fin 64), i = ix2 n r := ⟨i 0, i 1, eq_ix2 i⟩
  have hx' : ∀ k : Fin 64, x (ix2 p k) = a (ix2 n k) := hx
  have hy' : ∀ k : Fin 64, y (ix2 p k) = f (ix2 n k) := hy
  have hw' : ∀ k : Fin 64, w (ix2 k q) = W (ix2 k r) := hw
  have hβ' : β (ix2 (0 : Fin 1) q) = b (ix1 r) := hβ
  rw [Cert.TileEntry.pay_at, Cert.DenseLayer.out_ix2]
  unfold Cert.DenseLayer.entry
  simp only [hx', hy', hw', hβ']

end Cert.TileRows

end
-- ==== Proof.Flushed.lean ====
/-
  What grid point t writes back is block t of the dense layer of the whole arrays: the stored tile's entry j is the
  dense layer's entry at j's array index, because the tile's inputs are the arrays' rows, column and bias entry that
  entry depends on.
-/
import proofs.«133965_j4629974745848_1_alg».proof.Proof.PointPayload
import proofs.«133965_j4629974745848_1_alg».proof.Proof.BlockReads
import proofs.«133965_j4629974745848_1_alg».proof.Proof.TileRows

noncomputable section

namespace Cert.Flushed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The kernel's first result as one function of the program's arguments: the dense layer of the node's own
    embeddings, the aggregated neighbourhood, the weights and the bias. -/
def result (c : Dev nD) : (⟨S100000x64, .f32⟩ : BufTy).Contents (Elt Ideal) :=
  Cert.DenseLayer.out (m ((c : Thread nD τ).loc main_arg1))
    (Cert.HostSide.agg (m ((c : Thread nD τ).loc main_arg0)) (m ((c : Thread nD τ).loc main_arg2)) (m ((c : Thread nD τ).loc main_arg5)) (m ((c : Thread nD τ).loc main_arg6)))
    (m ((c : Thread nD τ).loc main_arg3)) (m ((c : Thread nD τ).loc main_arg4))

/-- The output window's blocks tile its array exactly, so what is written back of a staged tile is the whole tile. -/
theorem whole_tile (X : Vec Ideal S5000x64 .f32) (t : Fin cfg0.N) (j : ((cfg0.win 4).xblock (grid0.coords t)).Idx) :
    (cfg0.win 4).cut (grid0.coords t) X j = X j := rfl

/-- A block of the output window read out of ANY array: the entry at a block index is the array's entry at the
    embedded index. -/
theorem read4_at (A : (⟨S100000x64, .f32⟩ : BufTy).Contents (Elt Ideal)) (t : Fin cfg0.N) (y : S5000x64.Idx) :
    ((cfg0.win 4).blk t).view.read (Elt Ideal) A y = A (((cfg0.win 4).blk t).view.emb y) := rfl

/-- WHAT POINT t WRITES BACK is block t of the dense layer of the whole arrays. -/
theorem flushed_eq (c : Dev nD) (t : Fin cfg0.N) :
    (dats m 0 c).flushed 4 t = ((cfg0.win 4).blk t).view.read (Elt Ideal) (result m c) := by
  rw [Cert.PointPayload.flushed_pay]
  funext j
  refine (whole_tile (k0_pay1 (F := Ideal) (iblk m c 0 t) (iblk m c 1 t) (iblk m c 2 t) (iblk m c 3 t)) t j).trans ?_
  refine Eq.trans ?_ (read4_at (result m c) t j).symm
  unfold result
  exact Cert.TileRows.tile_at (m ((c : Thread nD τ).loc main_arg1))
    (Cert.HostSide.agg (m ((c : Thread nD τ).loc main_arg0)) (m ((c : Thread nD τ).loc main_arg2)) (m ((c : Thread nD τ).loc main_arg5)) (m ((c : Thread nD τ).loc main_arg6)))
    (m ((c : Thread nD τ).loc main_arg3)) (m ((c : Thread nD τ).loc main_arg4))
    (iblk m c 0 t) (iblk m c 1 t) (iblk m c 2 t) (iblk m c 3 t) j (((cfg0.win 4).blk t).view.emb j)
    (Cert.BlockReads.own_row m c t j) (Cert.BlockReads.agg_row m c t j)
    (Cert.BlockReads.weight_col m c t j) (Cert.BlockReads.bias_entry m c t j)

end Cert.Flushed

end
-- ==== Proof.KernelArray.lean ====
/-
  From blocks to the array.  Every grid point writes back its block of the dense layer of the whole arrays, and the 20
  blocks tile the result's 100000 rows; so after the run the result array IS the dense layer.  The program's other two
  results are host-computed arrays the launch never touches: the run leaves them as the launch found them.
-/
import proofs.«133965_j4629974745848_1_alg».proof.Proof.Flushed

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)
variable (ρ : Dev nD → PrngReg)

/-- THE RESULT ARRAY after the run is the dense layer of the arguments. -/
theorem final (c : Dev nD) : (dats m 0 c).arrAt 4 cfg0.N = Cert.Flushed.result m c :=
  (dats m 0 c).arrAt_eq_of_cover 4 (Cert.Flushed.result m c) (fun t _ => Cert.Flushed.flushed_eq m c t)
    Cert.BlockFacts.cover

/-- The kernel's run, read: every weakly fair execution terminates with the first result at the dense layer of the
    arguments, the other two results at the arrays picked at `perm`, and the arguments unchanged. -/
theorem run : θ_run defs (onTc (τ := τ) (main (F := Ideal))) ⟨m, fun _ => 0, ρ⟩ fun r => ∀ c : Dev nD,
      r.2.mem ((c : Thread nD τ).loc main_v29) = Cert.Flushed.result m c
      ∧ r.2.mem ((c : Thread nD τ).loc main_v19) = Cert.HostSide.pick (m ((c : Thread nD τ).loc main_arg7)) (m ((c : Thread nD τ).loc main_arg9))
      ∧ r.2.mem ((c : Thread nD τ).loc main_v26) = Cert.HostSide.pick (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(Cert.KernelIdeal.Value.post4 m r h c).trans (final m c),
      ((h c).2 main_v19 (Pipeline.mem_restRefs_of main_v19 (by decide) (by decide))).trans (Cert.HostSide.V_users m c),
      ((h c).2 main_v26 (Pipeline.mem_restRefs_of main_v26 (by decide) (by decide))).trans (Cert.HostSide.V_labels m c),
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c,
      Cert.KernelIdeal.Value.kept_main_arg5 m r h c,
      Cert.KernelIdeal.Value.kept_main_arg6 m r h c,
      Cert.KernelIdeal.Value.kept_main_arg7 m r h c,
      Cert.KernelIdeal.Value.kept_main_arg8 m r h c,
      Cert.KernelIdeal.Value.kept_main_arg9 m r h c⟩)
    (run_main m ρ)

end Cert.KernelArray

end
-- ==== Proof.RefLayer.lean ====
/-
  The reference's first result is the dense layer.  Its last four stages are a `dot_general` of h = a + f against W
  (one contracted axis: at entry (n, j) the sum over k of h[n, k] · W[k, j]), the bias vector broadcast to a row and then
  down the rows (entry (n, j) is b[j]), their sum, and the host's tanh, which on the extended reals is the same function
  as the vector unit's.  The aggregated array f is the reference's stage 12 and is left unopened.
-/
import proofs.«133965_j4629974745848_1_alg».proof.Proof.Gen.ReferenceIdeal.Read
import proofs.«133965_j4629974745848_1_alg».proof.Proof.DenseLayer

noncomputable section

open scoped BigOperators

namespace Cert.RefLayer

open Cert.ReferenceIdeal Cert.ReferenceIdeal.Read Idealize.ShloMosaic Idealize.ShloMosaic.ValueIdx

/-- The left factor of the reference's product at output (n, j) and contraction coordinate k is read at (n, k) … -/
theorem lidx_eq (n : Fin 100000) (j : Fin 64) (k : Fin 64) : lidx_main_v28 (ix2 n j) k = ix2 n k :=
  funext fun a => by match a with | ⟨0, _⟩ => rfl | ⟨1, _⟩ => rfl

/-- … the right factor at (k, j) … -/
theorem ridx_eq (n : Fin 100000) (j : Fin 64) (k : Fin 64) : ridx_main_v28 (ix2 n j) k = ix2 k j :=
  funext fun a => by match a with | ⟨0, _⟩ => rfl | ⟨1, _⟩ => rfl

/-- … and the twice-broadcast bias at (n, j) is the bias vector at j. -/
theorem bidx_eq (n : Fin 100000) (j : Fin 64) : idx_main_v29 (idx_main_v30 (ix2 n j)) = ix1 j :=
  funext fun a => by match a with | ⟨0, _⟩ => rfl

/-- The reference's first result, as a function of its arguments, is the dense layer of a = argument 1,
    f = its stage 12 (the scatter-add of the weighted gathered rows), W = argument 3, b = argument 4. -/
theorem out_eq (x0 x1 : (⟨S100000x64, .f32⟩ : BufTy).Contents (Elt Ideal)) (x2 : (⟨S1600000, .f32⟩ : BufTy).Contents (Elt Ideal))
    (x3 : (⟨S64x64, .f32⟩ : BufTy).Contents (Elt Ideal)) (x4 : (⟨S64, .f32⟩ : BufTy).Contents (Elt Ideal))
    (x5 x6 : (⟨S1600000, .i32⟩ : BufTy).Contents (Elt Ideal)) :
    val_main_v32 (F := Ideal) x0 x1 x2 x3 x4 x5 x6
      = Cert.DenseLayer.out x1 (val_main_v12 (F := Ideal) x0 x2 x5 x6) x3 x4 := by
  funext i
  obtain ⟨n, j, rfl⟩ : ∃ (n : Fin 100000) (j : Fin 64), i = ix2 n j := ⟨i 0, i 1, eq_ix2 i⟩
  rw [val_main_v32_apply, val_main_v31_apply, val_main_v28_apply, val_main_v30_apply, val_main_v29_apply,
    Cert.DenseLayer.out_ix2]
  unfold Cert.DenseLayer.entry
  simp only [lidx_eq, ridx_eq, bidx_eq, val_main_v13_apply, Ideal.hostUnary_tanh_def, Ideal.addf_def]

end Cert.RefLayer

end
-- ==== Proof.Bridge.lean ====
/-
  The two programs side by side.  Both compute the aggregated neighbourhood and the two picked integer arrays by the
  same host operations with the same dimension numbers, so those terms are equal as they stand; and the reference's
  first result is the dense layer (its last stages read index by index) of the same four arrays the kernel's is.
-/
import proofs.«133965_j4629974745848_1_alg».proof.Proof.HostSide
import proofs.«133965_j4629974745848_1_alg».proof.Proof.RefLayer

noncomputable section

namespace Cert.Bridge

open Idealize.ShloMosaic

/-- The aggregated neighbourhood is one term in both programs. -/
theorem agg_eq (x0 : (⟨Cert.ReferenceIdeal.S100000x64, .f32⟩ : BufTy).Contents (Elt Ideal))
    (x2 : (⟨Cert.ReferenceIdeal.S1600000, .f32⟩ : BufTy).Contents (Elt Ideal))
    (x5 x6 : (⟨Cert.ReferenceIdeal.S1600000, .i32⟩ : BufTy).Contents (Elt Ideal)) :
    Cert.ReferenceIdeal.Read.val_main_v12 (F := Ideal) x0 x2 x5 x6 = Cert.HostSide.agg x0 x2 x5 x6 := rfl

/-- The reference's second result is argument 7 picked at argument 9, the kernel's term. -/
theorem users_eq (x7 x9 : (⟨Cert.ReferenceIdeal.S100000, .i32⟩ : BufTy).Contents (Elt Ideal)) :
    Cert.ReferenceIdeal.Read.val_main_v20 (F := Ideal) x7 x9 = Cert.HostSide.pick x7 x9 := rfl

/-- The reference's third result is argument 8 picked at argument 9, the kernel's term. -/
theorem labels_eq (x8 x9 : (⟨Cert.ReferenceIdeal.S100000, .i32⟩ : BufTy).Contents (Elt Ideal)) :
    Cert.ReferenceIdeal.Read.val_main_v27 (F := Ideal) x8 x9 = Cert.HostSide.pick x8 x9 := rfl

/-- The reference's first result is the dense layer of the node's own embeddings, the kernel's aggregated
    neighbourhood, the weights and the bias. -/
theorem first_eq (x0 x1 : (⟨Cert.ReferenceIdeal.S100000x64, .f32⟩ : BufTy).Contents (Elt Ideal))
    (x2 : (⟨Cert.ReferenceIdeal.S1600000, .f32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 x6 : (⟨Cert.ReferenceIdeal.S1600000, .i32⟩ : BufTy).Contents (Elt Ideal)) :
    Cert.ReferenceIdeal.Read.val_main_v32 (F := Ideal) x0 x1 x2 x3 x4 x5 x6
      = Cert.DenseLayer.out x1 (Cert.HostSide.agg x0 x2 x5 x6) x3 x4 :=
  (Cert.RefLayer.out_eq x0 x1 x2 x3 x4 x5 x6).trans (congrArg (fun f => Cert.DenseLayer.out x1 f x3 x4) (agg_eq x0 x2 x5 x6))

end Cert.Bridge

end
-- ==== Proof.lean ====
/-
  The certificate: a message-passing layer.  Both programs aggregate, for every node, the weighted embeddings of its
  in-neighbours (a gather, a row-wise scaling and a scatter-add, done by the same host operations in both), add the
  node's own embedding, and apply one dense layer: result[n, j] = tanh ( Σ_k (a[n, k] + f[n, k]) · W[k, j] + b[j] ).
  The kernel computes the dense layer 5000 rows at a time on the matrix unit, the weights narrowed to its input format;
  the reference computes it by one whole-array product.  On the extended reals the narrowing is the identity and a
  product into a zero accumulator is the plain sum, so the two results are the same function of the arguments, index by
  index; no cancellation or distribution is used, so the inputs' finiteness is never needed.  The other two results, two
  integer arrays picked at a permutation, are computed by the same host operations in both programs.
-/
import proofs.«133965_j4629974745848_1_alg».proof.Defs
import proofs.«133965_j4629974745848_1_alg».proof.Proof.Gen.Kernel
import proofs.«133965_j4629974745848_1_alg».proof.Proof.Gen.Kernel.Frame
import proofs.«133965_j4629974745848_1_alg».proof.Proof.Gen.KernelIdeal
import proofs.«133965_j4629974745848_1_alg».proof.Proof.Gen.KernelIdeal.Frame
import proofs.«133965_j4629974745848_1_alg».proof.Proof.Gen.KernelIdeal.Value
import proofs.«133965_j4629974745848_1_alg».proof.Proof.Gen.ReferenceIdeal
import proofs.«133965_j4629974745848_1_alg».proof.Proof.Gen.ReferenceIdeal.Run
import proofs.«133965_j4629974745848_1_alg».proof.Proof.Gen.ReferenceIdeal.Read
import proofs.«133965_j4629974745848_1_alg».proof.Proof.Gen.Pre_finite_inputs
import proofs.«133965_j4629974745848_1_alg».proof.Proof.KernelArray
import proofs.«133965_j4629974745848_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no launch: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the dense layer of the same four arrays as first
    result and the same picked arrays as second and third. -/
theorem algebraic : Cert.algebraic_KernelIdeal_ReferenceIdeal := by
  intro m ρ m' ρ' _ hagree
  refine ⟨fun c => Cert.Flushed.result m c,
    fun c => Cert.HostSide.pick (m ((c.tc : Thread Cert.KernelIdeal.nD Cert.KernelIdeal.τ).loc Cert.KernelIdeal.main_arg7))
      (m ((c.tc : Thread Cert.KernelIdeal.nD Cert.KernelIdeal.τ).loc Cert.KernelIdeal.main_arg9)),
    fun c => Cert.HostSide.pick (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelArray.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3, a4, a5, a6, a7, a8, a9⟩ := hagree c
  refine ⟨?_, ?_, ?_, hrest⟩
  · rw [h0, Cert.ReferenceIdeal.Read.val_main_v32_eq, Cert.Bridge.first_eq, a0, a1, a2, a3, a4, a5, a6]
    rfl
  · rw [h1, Cert.ReferenceIdeal.Read.val_main_v20_eq, Cert.Bridge.users_eq, a7, a9]
  · rw [h2, Cert.ReferenceIdeal.Read.val_main_v27_eq, Cert.Bridge.labels_eq, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
